-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  main_v38

def fn_part1 {F : FTy → Type} [FloatOps F] (main_arg4 : FVec F S1024x512 .f32) (main_arg5 : FVec F S1024 .f32) (main_arg6 : FVec F S1024x512 .f32) (main_arg7 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S32768x512 .f32) (main_arg1 : FVec F S32768x512 .f32) (main_arg2 : FVec F S512x512 .f32) (main_arg3 : FVec F S512 .f32) (main_arg4 : FVec F S1024x512 .f32) (main_arg5 : FVec F S1024 .f32) (main_arg6 : FVec F S1024x512 .f32) (main_arg7 : FVec F S512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S512x1536 : Shape := ⟨2, ![512, 1536]⟩
abbrev S1536 : Shape := ⟨1, ![1536]⟩
abbrev S1x1536 : Shape := ⟨2, ![1, 1536]⟩
abbrev S1024x1536 : Shape := ⟨2, ![1024, 1536]⟩
abbrev S1024x1024 : Shape := ⟨2, ![1024, 1024]⟩

abbrev nBuf : Space → Nat
  | .hbm => 19
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S1024x512, .f32⟩
  | .hbm, ⟨7, _⟩ => ⟨S512x512, .f32⟩
  | .hbm, ⟨8, _⟩ => ⟨S512x512, .f32⟩
  | .hbm, ⟨9, _⟩ => ⟨S512x1024, .f32⟩
  | .hbm, ⟨10, _⟩ => ⟨S512x1536, .f32⟩
  | .hbm, ⟨11, _⟩ => ⟨S512x1536, .bf16⟩
  | .hbm, ⟨12, _⟩ => ⟨S1536, .f32⟩
  | .hbm, ⟨13, _⟩ => ⟨S1x1536, .f32⟩
  | .hbm, ⟨14, _⟩ => ⟨S512x1024, .f32⟩
  | .hbm, ⟨15, _⟩ => ⟨S512x1024, .bf16⟩
  | .hbm, ⟨16, _⟩ => ⟨S512x512, .f32⟩
  | .hbm, ⟨17, _⟩ => ⟨S512x512, .bf16⟩
  | .hbm, ⟨18, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1536, .bf16⟩
  | .local _ .vmem, ⟨5, _⟩ => ⟨S1x1536, .f32⟩
  | .local _ .vmem, ⟨6, _⟩ => ⟨S512x1024, .bf16⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x512_S512x512_1_0 : S512x512.Transposes [1, 0] S512x512
  transposes_S1024x512_S512x1024_1_0 : S1024x512.Transposes [1, 0] S512x1024
  concatenates_S512x512_S512x1024_S512x1536_d1 : Shape.Concatenates [S512x512, S512x1024] S512x1536 1
  bitsLt_bf16_f32 : FTy.bits .bf16 < FTy.bits .f32
  concatenates_S512_S1024_S1536_d0 : Shape.Concatenates [S512, S1024] S1536 0
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x1024 : S1024x1536.Slices ![0, 512] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S1024x1024_o0_0_S1024x512 : S1024x1024.Slices ![0, 0] S1024x512
  slices_S1024x1024_o0_512_S1024x512 : S1024x1024.Slices ![0, 512] S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x1536_S1024x1536_1_0_0_1_n_n_wf : DotDims.WF S1024x512 S512x1536 S1024x1536 [1] [0] [0] [1] [] []
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x512 : Shape := ⟨2, ![1, 512]⟩
abbrev S512x1024 : Shape := ⟨2, ![512, 1024]⟩
abbrev S32768x1024 : Shape := ⟨2, ![32768, 1024]⟩
abbrev S1x1024 : Shape := ⟨2, ![1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S1024x512, .f32⟩
  | .hbm, ⟨7, _⟩ => ⟨S512x512, .f32⟩
  | .hbm, ⟨8, _⟩ => ⟨S512x512, .f32⟩
  | .hbm, ⟨9, _⟩ => ⟨S32768x512, .f32⟩
  | .hbm, ⟨10, _⟩ => ⟨S1x512, .f32⟩
  | .hbm, ⟨11, _⟩ => ⟨S32768x512, .f32⟩
  | .hbm, ⟨12, _⟩ => ⟨S32768x512, .f32⟩
  | .hbm, ⟨13, _⟩ => ⟨S512x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S512x1024, .f32⟩
  | .hbm, ⟨19, _⟩ => ⟨S32768x1024, .f32⟩
  | .hbm, ⟨20, _⟩ => ⟨S32768x1024, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S32768x512, .f32⟩
  | .hbm, ⟨26, _⟩ => ⟨S32768x512, .f32⟩
  | .hbm, ⟨27, _⟩ => ⟨S_, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S_, .f32⟩
  | .hbm, ⟨37, _⟩ => ⟨S32768x512, .f32⟩
  | .hbm, ⟨38, _⟩ => ⟨S32768x512, .f32⟩
  | .hbm, ⟨39, _⟩ => ⟨S32768x512, .f32⟩
  | .hbm, ⟨40, _⟩ => ⟨S512x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S_, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x512_0_0 : S32768x1024.Slices ![0, 0] S32768x512
  bcast_S_S32768x512 : S_.BroadcastsInDim S32768x512 (![] : Fin 0 → Fin S32768x512.rank)
  slices_S32768x1024_S32768x512_0_512 : S32768x1024.Slices ![0, 512] S32768x512
  dot_S32768x512_S512x512_S32768x512_1_0_0_1_n_n_wf : DotDims.WF S32768x512 S512x512 S32768x512 [1] [0] [0] [1] [] []
  dot_S32768x512_S512x1024_S32768x1024_1_0_0_1_n_n_wf : DotDims.WF S32768x512 S512x1024 S32768x1024 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf

class Facts : Prop extends Facts₀ where

variable [Facts]
-- ==== Proof.GruCell.lean ====
/-
  One row of a gated recurrent unit, as a function of its row of inputs and of the weight rows.

  For a data row `d`, a state row `s` (both of length 512) and weights read row by row:
    gate r   = (∑ k, d k · wig r k + big r) + ∑ k, s k · wsg r k            (r < 1024)
    u q      = σ (gate q),   ρ q = σ (gate (q + 512))                        (q < 512, σ the logistic function)
    h q      = tanh ((∑ k, d k · wis q k + bis q) + ∑ k, (s k · ρ k) · wh q k)
  the new state is written in two ways:
    `cell`   : s q + u q · (h q − s q)
    `cellR`  : u q · h q + (1 − u q) · s q
  On the extended reals σ and tanh take real values everywhere (σ ⊥ = 0, σ ⊤ = 1, tanh ⊥ = −1, tanh ⊤ = 1), so
  whenever the state entry `s q` is a real number both forms are the same real polynomial in `s q`, `u q`, `h q`.
-/
import Idealize.ShloMosaic.PureOps.Ideal
import Idealize.ShloMosaic.Lib.IdealHost
import Idealize.ShloMosaic.Lib.ValueIdx

noncomputable section

namespace Cert.Gru

open Idealize.ShloMosaic

/-- Column `q` of the first half of the gate, as an index below 1024. -/
abbrev lo (q : Fin 512) : Fin 1024 := ⟨q.val, by have := q.isLt; omega⟩
/-- Column `q` of the second half of the gate. -/
abbrev hi (q : Fin 512) : Fin 1024 := ⟨512 + q.val, by have := q.isLt; omega⟩

section
variable (d s : Fin 512 → EReal) (wis : Fin 512 → Fin 512 → EReal) (bis : Fin 512 → EReal)
  (wig : Fin 1024 → Fin 512 → EReal) (big : Fin 1024 → EReal) (wsg : Fin 1024 → Fin 512 → EReal)
  (wh : Fin 512 → Fin 512 → EReal)

/-- The gate pre-activation: the data row against row `r` of `wig`, plus the bias, plus the state row against row `r` of `wsg`. -/
def gate (r : Fin 1024) : EReal := ((∑ k : Fin 512, d k * wig r k) + big r) + ∑ k : Fin 512, s k * wsg r k

/-- The update gate. -/
def upd (q : Fin 512) : EReal := Ideal.logistic (gate d s wig big wsg (lo q))

/-- The reset gate. -/
def rst (q : Fin 512) : EReal := Ideal.logistic (gate d s wig big wsg (hi q))

/-- The candidate state. -/
def cand (q : Fin 512) : EReal :=
  Ideal.tanh (((∑ k : Fin 512, d k * wis q k) + bis q) + ∑ k : Fin 512, (s k * rst d s wig big wsg k) * wh q k)

/-- The new state, as the state moved towards the candidate by the update gate. -/
def cell (q : Fin 512) : EReal :=
  s q + upd d s wig big wsg q * (cand d s wis bis wig big wsg wh q - s q)

/-- The new state, as the convex combination of the candidate and the state. -/
def cellR (q : Fin 512) : EReal :=
  upd d s wig big wsg q * cand d s wis bis wig big wsg wh q + (1 - upd d s wig big wsg q) * s q

end

/-- Row `p` of a matrix, as a function of the column. -/
abbrev rows {a b : Nat} (x : (⟨2, ![a, b]⟩ : Shape).Idx → EReal) (p : Fin a) (k : Fin b) : EReal := x (ValueIdx.ix2 p k)

/-- Entry `p` of a vector. -/
abbrev ent {a : Nat} (x : (⟨1, ![a]⟩ : Shape).Idx → EReal) (p : Fin a) : EReal := x (ValueIdx.ix1 p)

/-- The whole new-state array: entry `(p, q)` is the cell of row `p` of the data and of the state, against the weights
    read row by row, at column `q`. -/
def G (data state : (⟨2, ![32768, 512]⟩ : Shape).Idx → EReal) (Wis : (⟨2, ![512, 512]⟩ : Shape).Idx → EReal)
    (bis : (⟨1, ![512]⟩ : Shape).Idx → EReal) (Wig : (⟨2, ![1024, 512]⟩ : Shape).Idx → EReal)
    (big : (⟨1, ![1024]⟩ : Shape).Idx → EReal) (Wsg : (⟨2, ![1024, 512]⟩ : Shape).Idx → EReal)
    (Wh : (⟨2, ![512, 512]⟩ : Shape).Idx → EReal) : (⟨2, ![32768, 512]⟩ : Shape).Idx → EReal :=
  fun i => cell (rows data (i 0)) (rows state (i 0)) (rows Wis) (ent bis) (rows Wig) (ent big) (rows Wsg) (rows Wh) (i 1)

/-- The logistic function takes a real value at every extended real. -/
theorem logistic_real (x : EReal) : ∃ u : ℝ, Ideal.logistic x = (u : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The hyperbolic tangent takes a real value at every extended real. -/
theorem tanh_real (x : EReal) : ∃ h : ℝ, Ideal.tanh x = (h : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- For real `s`, `u`, `h`: `u · h + (1 − u) · s = s + u · (h − s)`, on the extended reals. -/
theorem blend_real (s u h : ℝ) :
    (u : EReal) * (h : EReal) + (1 - (u : EReal)) * (s : EReal) = (s : EReal) + (u : EReal) * ((h : EReal) - (s : EReal)) := by
  rw [← EReal.coe_one, ← EReal.coe_sub, ← EReal.coe_sub, ← EReal.coe_mul, ← EReal.coe_mul, ← EReal.coe_mul,
    ← EReal.coe_add, ← EReal.coe_add]
  exact congrArg _ (by ring)

/-- The two ways of writing the new state agree wherever the state entry is a real number. -/
theorem cellR_eq_cell (d s : Fin 512 → EReal) (wis : Fin 512 → Fin 512 → EReal) (bis : Fin 512 → EReal)
    (wig : Fin 1024 → Fin 512 → EReal) (big : Fin 1024 → EReal) (wsg : Fin 1024 → Fin 512 → EReal)
    (wh : Fin 512 → Fin 512 → EReal) (q : Fin 512) (hs : ∃ r : ℝ, s q = (r : EReal)) :
    cellR d s wis bis wig big wsg wh q = cell d s wis bis wig big wsg wh q := by
  obtain ⟨r, hr⟩ := hs
  obtain ⟨u, hu⟩ := logistic_real (gate d s wig big wsg (lo q))
  obtain ⟨h, hh⟩ := tanh_real (((∑ k : Fin 512, d k * wis q k) + bis q) + ∑ k : Fin 512, (s k * rst d s wig big wsg k) * wh q k)
  unfold cellR cell upd cand
  rw [hu, hh, hr]
  exact blend_real r u h

/-- The host's expansion of the logistic function — one over one plus the exponential of the negated argument, the
    ones as the f32 word of 1.0 — is the logistic function. -/
theorem host_logistic (g : EReal) :
    FloatOps.hostDivf (F := Ideal) (φ := .f32) (FloatOps.ofBits .f32 0x3F800000#32)
      (FloatOps.addf (FloatOps.ofBits .f32 0x3F800000#32) (FloatOps.hostUnary .exp (FloatOps.hostNegf g)))
      = Ideal.logistic g := by
  show Ideal.div (Ideal.ofBits .f32 0x3F800000#32) (Ideal.ofBits .f32 0x3F800000#32 + Ideal.exp (-g)) = _
  rw [Ideal.ofBits_one_f32]
  rfl

end Cert.Gru

end
-- ==== Proof.RefCell.lean ====
/-
  The reference's result, read at an entry `(p, q)`, is the convex-combination form of the cell of row `p`:
  its three products against transposed weights are sums over the contracted column, its biases are broadcast
  along the rows, its two gate halves are the column ranges [0, 512) and [512, 1024) of one pre-activation, and
  its spelled-out `1 / (1 + exp (−x))` is the logistic function.
-/
import proofs.«153636_j64604898066782_2_alg».proof.Proof.Gen.ReferenceIdeal.Read
import proofs.«153636_j64604898066782_2_alg».proof.Proof.GruCell

noncomputable section

namespace Cert.Gru.Ref

open Cert.ReferenceIdeal Cert.ReferenceIdeal.Read Idealize.ShloMosaic Idealize.ShloMosaic.ValueIdx

variable (x0 x1 : (⟨S32768x512, .f32⟩ : BufTy).Contents (Elt Ideal)) (x2 : (⟨S512x512, .f32⟩ : BufTy).Contents (Elt Ideal))
  (x3 : (⟨S512, .f32⟩ : BufTy).Contents (Elt Ideal)) (x4 : (⟨S1024x512, .f32⟩ : BufTy).Contents (Elt Ideal))
  (x5 : (⟨S1024, .f32⟩ : BufTy).Contents (Elt Ideal)) (x6 : (⟨S1024x512, .f32⟩ : BufTy).Contents (Elt Ideal))
  (x7 : (⟨S512x512, .f32⟩ : BufTy).Contents (Elt Ideal))

/-- The gate pre-activation at `(p, r)`. -/
theorem gate_at (p : Fin 32768) (r : Fin 1024) :
    val_main_v12 (F := Ideal) x0 x1 x4 x5 x6 (ix2 p r) = gate (rows x0 p) (rows x1 p) (rows x4) (ent x5) (rows x6) r := by
  have e1 : ∀ k : Fin 512, lidx_main_v6 (ix2 p r) k = ix2 p k := fun k => funext fun a => by
    match a with | ⟨0, _⟩ => rfl | ⟨1, _⟩ => rfl
  have e2 : ∀ k : Fin 512, idx_main_v5 (ridx_main_v6 (ix2 p r) k) = ix2 r k := fun k => funext fun a => by
    match a with | ⟨0, _⟩ => rfl | ⟨1, _⟩ => rfl
  have e3 : idx_main_v7 (idx_main_v8 (ix2 p r)) = ix1 r := funext fun a => by
    match a with | ⟨0, _⟩ => rfl
  have e4 : ∀ k : Fin 512, lidx_main_v11 (ix2 p r) k = ix2 p k := fun k => funext fun a => by
    match a with | ⟨0, _⟩ => rfl | ⟨1, _⟩ => rfl
  have e5 : ∀ k : Fin 512, idx_main_v10 (ridx_main_v11 (ix2 p r) k) = ix2 r k := fun k => funext fun a => by
    match a with | ⟨0, _⟩ => rfl | ⟨1, _⟩ => rfl
  rw [val_main_v12_apply, val_main_v9_apply, val_main_v6_apply, val_main_v8_apply, val_main_v7_apply, val_main_v11_apply]
  simp only [val_main_v5_apply, val_main_v10_apply, e1, e2, e3, e4, e5]
  rfl

/-- The update gate at `(p, q)`. -/
theorem upd_at (p : Fin 32768) (q : Fin 512) :
    val_main_v19 (F := Ideal) x0 x1 x4 x5 x6 (ix2 p q) = upd (rows x0 p) (rows x1 p) (rows x4) (ent x5) (rows x6) q := by
  have e : idx_main_v13 (ix2 p q) = ix2 p (lo q) := funext fun a => by
    match a with | ⟨0, _⟩ => rfl | ⟨1, _⟩ => rfl
  rw [val_main_v19_apply, val_main_v18_apply, val_main_cst_0_apply, val_main_v17_apply, val_main_v16_apply, val_main_cst_apply,
    val_main_v15_apply, val_main_v14_apply, val_main_v13_apply, e, gate_at, host_logistic]
  rfl

/-- The reset gate at `(p, q)`. -/
theorem rst_at (p : Fin 32768) (q : Fin 512) :
    val_main_v26 (F := Ideal) x0 x1 x4 x5 x6 (ix2 p q) = rst (rows x0 p) (rows x1 p) (rows x4) (ent x5) (rows x6) q := by
  have e : idx_main_v20 (ix2 p q) = ix2 p (hi q) := funext fun a => by
    match a with | ⟨0, _⟩ => rfl | ⟨1, _⟩ => rfl
  rw [val_main_v26_apply, val_main_v25_apply, val_main_cst_2_apply, val_main_v24_apply, val_main_v23_apply, val_main_cst_1_apply,
    val_main_v22_apply, val_main_v21_apply, val_main_v20_apply, e, gate_at, host_logistic]
  rfl

/-- The candidate state at `(p, q)`. -/
theorem cand_at (p : Fin 32768) (q : Fin 512) :
    val_main_v31 (F := Ideal) x0 x1 x2 x3 x4 x5 x6 x7 (ix2 p q)
      = cand (rows x0 p) (rows x1 p) (rows x2) (ent x3) (rows x4) (ent x5) (rows x6) (rows x7) q := by
  have e1 : ∀ k : Fin 512, lidx_main_v1 (ix2 p q) k = ix2 p k := fun k => funext fun a => by
    match a with | ⟨0, _⟩ => rfl | ⟨1, _⟩ => rfl
  have e2 : ∀ k : Fin 512, idx_main_v0 (ridx_main_v1 (ix2 p q) k) = ix2 q k := fun k => funext fun a => by
    match a with | ⟨0, _⟩ => rfl | ⟨1, _⟩ => rfl
  have e3 : idx_main_v2 (idx_main_v3 (ix2 p q)) = ix1 q := funext fun a => by
    match a with | ⟨0, _⟩ => rfl
  have e4 : ∀ k : Fin 512, lidx_main_v29 (ix2 p q) k = ix2 p k := fun k => funext fun a => by
    match a with | ⟨0, _⟩ => rfl | ⟨1, _⟩ => rfl
  have e5 : ∀ k : Fin 512, idx_main_v28 (ridx_main_v29 (ix2 p q) k) = ix2 q k := fun k => funext fun a => by
    match a with | ⟨0, _⟩ => rfl | ⟨1, _⟩ => rfl
  rw [val_main_v31_apply, val_main_v30_apply, val_main_v4_apply, val_main_v1_apply, val_main_v3_apply, val_main_v2_apply,
    val_main_v29_apply]
  simp only [val_main_v0_apply, val_main_v28_apply, val_main_v27_apply, e1, e2, e3, e4, e5, rst_at]
  rfl

/-- The reference's result at `(p, q)` is the convex-combination form of the cell. -/
theorem result_at (p : Fin 32768) (q : Fin 512) :
    val_main_v36 (F := Ideal) x0 x1 x2 x3 x4 x5 x6 x7 (ix2 p q)
      = cellR (rows x0 p) (rows x1 p) (rows x2) (ent x3) (rows x4) (ent x5) (rows x6) (rows x7) q := by
  rw [val_main_v36_apply, val_main_v32_apply, val_main_v35_apply, val_main_v34_apply, val_main_v33_apply, val_main_cst_3_apply,
    upd_at, cand_at]
  show _ * _ + (Ideal.ofBits .f32 0x3F800000#32 - _) * _ = _
  rw [Ideal.ofBits_one_f32]
  rfl

end Cert.Gru.Ref

end
-- ==== Proof.KernMatmul.lean ====
/-
  The three matrix products of the kernel body, read at an entry: each is a [1024, 512] block against a
  [512, N] matrix into a zero accumulator, and at entry `(a, c)` it is the sum over `k < 512` of the left operand at
  `(a, k)` times the right operand at `(k, c)`: the product's contraction index ranges over a one-axis shape of
  extent 512, which is re-indexed by `k`, and the operands' index functions are read coordinate by coordinate.
-/
import proofs.«153636_j64604898066782_2_alg».proof.Proof.Gen.KernelIdeal
import Idealize.ShloMosaic.Lib.ValueIdx
import Idealize.ShloMosaic.PureOps.Ideal.Laws

noncomputable section

namespace Cert.Gru.Kern

open Cert.KernelIdeal Idealize.ShloMosaic Idealize.ShloMosaic.ValueIdx

/-! ### The product into [1024, 1536] -/

theorem lhsA_0 (i : S1024x1536.Idx) (q : dot_S1024x512_S512x1536_S1024x1536_1_0_0_1_n_n.contr.Idx) : (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhsA_1 (i : S1024x1536.Idx) (q : dot_S1024x512_S512x1536_S1024x1536_1_0_0_1_n_n.contr.Idx) : (dot_S1024x512_S512x1536_S1024x1536_1_0_0_1_n_n.lhsIdx i q 1).val = (q ⟨0, by decide⟩).val :=
  dot_S1024x512_S512x1536_S1024x1536_1_0_0_1_n_n.lhsIdx_val_of_single rfl i q
theorem rhsA_0 (i : S1024x1536.Idx) (q : dot_S1024x512_S512x1536_S1024x1536_1_0_0_1_n_n.contr.Idx) : (dot_S1024x512_S512x1536_S1024x1536_1_0_0_1_n_n.rhsIdx i q 0).val = (q ⟨0, by decide⟩).val :=
  dot_S1024x512_S512x1536_S1024x1536_1_0_0_1_n_n.rhsIdx_val_of_single rfl i q
theorem rhsA_1 (i : S1024x1536.Idx) (q : dot_S1024x512_S512x1536_S1024x1536_1_0_0_1_n_n.contr.Idx) : (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- Entry `(a, c)` of the product into a zero accumulator is the sum over the contracted column `k` of the left
    operand at `(a, k)` times the right operand at `(k, c)`. -/
theorem matmulA_at {φ₁ φ₂ : FTy} (l : FVec Ideal S1024x512 φ₁) (r : FVec Ideal S512x1536 φ₂) (a : Fin 1024) (c : Fin 1536) :
    FloatOps.matmul dot_S1024x512_S512x1536_S1024x1536_1_0_0_1_n_n none l r (constant (F := Ideal) S1024x1536 .f32 0x00000000#32) (ix2 a c)
      = ∑ k : Fin 512, l (ix2 a k) * r (ix2 k c) := by
  rw [Ideal.matmul_constant_zero_apply, ← Equiv.sum_comp (ValueIdx.contrEquiv1 dot_S1024x512_S512x1536_S1024x1536_1_0_0_1_n_n 512 rfl rfl).symm]
  refine Finset.sum_congr rfl fun k _ => ?_
  have hk := ValueIdx.contrEquiv1_symm_val dot_S1024x512_S512x1536_S1024x1536_1_0_0_1_n_n 512 rfl rfl k
  have el : dot_S1024x512_S512x1536_S1024x1536_1_0_0_1_n_n.lhsIdx (ix2 a c) ((ValueIdx.contrEquiv1 dot_S1024x512_S512x1536_S1024x1536_1_0_0_1_n_n 512 rfl rfl).symm k) = ix2 a k := funext fun b => Fin.ext (by
    match b with
    | ⟨0, _⟩ => exact lhsA_0 _ _
    | ⟨1, _⟩ => exact (lhsA_1 _ _).trans hk)
  have er : dot_S1024x512_S512x1536_S1024x1536_1_0_0_1_n_n.rhsIdx (ix2 a c) ((ValueIdx.contrEquiv1 dot_S1024x512_S512x1536_S1024x1536_1_0_0_1_n_n 512 rfl rfl).symm k) = ix2 k c := funext fun b => Fin.ext (by
    match b with
    | ⟨0, _⟩ => exact (rhsA_0 _ _).trans hk
    | ⟨1, _⟩ => exact rhsA_1 _ _)
  rw [el, er]

/-! ### The product into [1024, 1024] -/

theorem lhsB_0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsB_1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsB_0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsB_1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Entry `(a, c)` of the product into a zero accumulator is the sum over the contracted column `k` of the left
    operand at `(a, k)` times the right operand at `(k, c)`. -/
theorem matmulB_at {φ₁ φ₂ : FTy} (l : FVec Ideal S1024x512 φ₁) (r : FVec Ideal S512x1024 φ₂) (a : Fin 1024) (c : Fin 1024) :
    FloatOps.matmul dot_S1024x512_S512x1024_S1024x1024_1_0_0_1_n_n none l r (constant (F := Ideal) S1024x1024 .f32 0x00000000#32) (ix2 a c)
      = ∑ k : Fin 512, l (ix2 a k) * r (ix2 k c) := by
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 a c) ((ValueIdx.contrEquiv1 dot_S1024x512_S512x1024_S1024x1024_1_0_0_1_n_n 512 rfl rfl).symm k) = ix2 a k := funext fun b => Fin.ext (by
    match b with
    | ⟨0, _⟩ => exact lhsB_0 _ _
    | ⟨1, _⟩ => exact (lhsB_1 _ _).trans hk)
  have er : dot_S1024x512_S512x1024_S1024x1024_1_0_0_1_n_n.rhsIdx (ix2 a c) ((ValueIdx.contrEquiv1 dot_S1024x512_S512x1024_S1024x1024_1_0_0_1_n_n 512 rfl rfl).symm k) = ix2 k c := funext fun b => Fin.ext (by
    match b with
    | ⟨0, _⟩ => exact (rhsB_0 _ _).trans hk
    | ⟨1, _⟩ => exact rhsB_1 _ _)
  rw [el, er]

/-! ### The product into [1024, 512] -/

theorem lhsC_0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsC_1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem rhsC_0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem rhsC_1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Entry `(a, c)` of the product into a zero accumulator is the sum over the contracted column `k` of the left
    operand at `(a, k)` times the right operand at `(k, c)`. -/
theorem matmulC_at {φ₁ φ₂ : FTy} (l : FVec Ideal S1024x512 φ₁) (r : FVec Ideal S512x512 φ₂) (a : Fin 1024) (c : Fin 512) :
    FloatOps.matmul dot_S1024x512_S512x512_S1024x512_1_0_0_1_n_n none l r (constant (F := Ideal) S1024x512 .f32 0x00000000#32) (ix2 a c)
      = ∑ k : Fin 512, l (ix2 a k) * r (ix2 k c) := by
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 a c) ((ValueIdx.contrEquiv1 dot_S1024x512_S512x512_S1024x512_1_0_0_1_n_n 512 rfl rfl).symm k) = ix2 a k := funext fun b => Fin.ext (by
    match b with
    | ⟨0, _⟩ => exact lhsC_0 _ _
    | ⟨1, _⟩ => exact (lhsC_1 _ _).trans hk)
  have er : dot_S1024x512_S512x512_S1024x512_1_0_0_1_n_n.rhsIdx (ix2 a c) ((ValueIdx.contrEquiv1 dot_S1024x512_S512x512_S1024x512_1_0_0_1_n_n 512 rfl rfl).symm k) = ix2 k c := funext fun b => Fin.ext (by
    match b with
    | ⟨0, _⟩ => exact (rhsC_0 _ _).trans hk
    | ⟨1, _⟩ => exact rhsC_1 _ _)
  rw [el, er]

end Cert.Gru.Kern

end
-- ==== Proof.KernPay.lean ====
/-
  The kernel body's stored value, read at an entry `(a, q)` of the [1024, 512] output block, is the cell of row `a` of
  the data block and of the state block, with the weights read off the body's other loads: the fused [512, 1536]
  matrix holds the transposed input-to-state weights in its columns [0, 512) and the transposed input-to-gate weights
  in its columns [512, 1536); the [1, 1536] row holds the two biases in the same column ranges; the other two
  matrices are the transposed state-to-gate and state-to-state weights. A change of float format is the identity on
  the extended reals, a shape cast to the same shape is the identity, and the bias row is broadcast along the rows.
-/
import proofs.«153636_j64604898066782_2_alg».proof.Proof.Gen.KernelIdeal.Skeleton
import proofs.«153636_j64604898066782_2_alg».proof.Proof.GruCell
import proofs.«153636_j64604898066782_2_alg».proof.Proof.KernMatmul
import Idealize.ShloMosaic.Lib.Pipeline.Value

noncomputable section

namespace Cert.Gru.Kern

open Cert.KernelIdeal Cert.KernelIdeal.Gen Idealize.ShloMosaic Idealize.ShloMosaic.ValueIdx

/-- Column `r` of the first third of the fused matrix. -/
abbrev c0 (r : Fin 512) : Fin 1536 := ⟨r.val, by have := r.isLt; omega⟩
/-- Column `r` of the last two thirds of the fused matrix. -/
abbrev c1 (r : Fin 1024) : Fin 1536 := ⟨512 + r.val, by have := r.isLt; omega⟩

/-- The bias row broadcast along the 1024 rows, at `(a, c)`, is the row at `(0, c)`. -/
theorem bcast_row (x : FVec Ideal S1x1536 .f32) (a : Fin 1024) (c : Fin 1536) :
    broadcastTo S1024x1536 x broadcasts_S1x1536_S1024x1536 (ix2 a c) = x (ix2 (0 : Fin 1) c) :=
  broadcastTo_apply x broadcasts_S1x1536_S1024x1536 (ix2 a c) (ix2 (0 : Fin 1) c) (fun b => match b with
    | ⟨0, _⟩ => by show (0 : ℕ) = if (1 : ℕ) = 1 then 0 else _; rw [if_pos rfl]
    | ⟨1, _⟩ => by show c.val = if (1536 : ℕ) = 1 then 0 else _; rw [if_neg (by decide)]; rfl)

section
variable (v0 v1 : FVec Ideal S1024x512 .f32) (v4 : FVec Ideal S512x1536 .bf16) (v7 : FVec Ideal S1x1536 .f32)
  (v13 : FVec Ideal S512x1024 .bf16) (v23 : FVec Ideal S512x512 .bf16)

/-- The fused data-side projection: the data block against the fused matrix, plus the bias row. -/
def proj : FVec Ideal S1024x1536 .f32 :=
  addf (matmul dot_S1024x512_S512x1536_S1024x1536_1_0_0_1_n_n none (truncf .bf16 v0 bitsLt_bf16_f32) (shapeCast S512x1536 v4 shapeCasts_S512x1536_S512x1536)
      (constant (F := Ideal) S1024x1536 .f32 0x00000000#32))
    (broadcastTo S1024x1536 (shapeCast S1x1536 v7 shapeCasts_S1x1536_S1x1536) broadcasts_S1x1536_S1024x1536)

/-- The gate pre-activations: the last two thirds of the projection plus the state block against its matrix. -/
def gates : FVec Ideal S1024x1024 .f32 :=
  addf (extractStridedSlice S1024x1024 ![0, 512] (proj v0 v4 v7) slices_S1024x1536_o0_512_S1024x1024)
    (matmul dot_S1024x512_S512x1024_S1024x1024_1_0_0_1_n_n none (truncf .bf16 v1 bitsLt_bf16_f32) (shapeCast S512x1024 v13 shapeCasts_S512x1024_S512x1024)
      (constant (F := Ideal) S1024x1024 .f32 0x00000000#32))

/-- The state block scaled by the reset gate. -/
def scaled : FVec Ideal S1024x512 .f32 :=
  mulf v1 (logistic (extractStridedSlice S1024x512 ![0, 512] (gates v0 v1 v4 v7 v13) slices_S1024x1024_o0_512_S1024x512))

/-- The body's stored value is built from these three. -/
theorem pay_eq : k0_pay1 (F := Ideal) v0 v1 v4 v7 v13 v23
    = addf v1 (mulf (logistic (extractStridedSlice S1024x512 ![0, 0] (gates v0 v1 v4 v7 v13) slices_S1024x1024_o0_0_S1024x512))
        (subf (tanh (addf (extractStridedSlice S1024x512 ![0, 0] (proj v0 v4 v7) slices_S1024x1536_o0_0_S1024x512)
          (matmul dot_S1024x512_S512x512_S1024x512_1_0_0_1_n_n none (truncf .bf16 (scaled v0 v1 v4 v7 v13) bitsLt_bf16_f32)
            (shapeCast S512x512 v23 shapeCasts_S512x512_S512x512) (constant (F := Ideal) S1024x512 .f32 0x00000000#32)))) v1)) := rfl

theorem proj_at (a : Fin 1024) (c : Fin 1536) :
    proj v0 v4 v7 (ix2 a c) = (∑ k : Fin 512, v0 (ix2 a k) * v4 (ix2 k c)) + v7 (ix2 (0 : Fin 1) c) := by
  show FloatOps.matmul dot_S1024x512_S512x1536_S1024x1536_1_0_0_1_n_n none (truncf .bf16 v0 bitsLt_bf16_f32) (shapeCast S512x1536 v4 shapeCasts_S512x1536_S512x1536)
      (constant (F := Ideal) S1024x1536 .f32 0x00000000#32) (ix2 a c)
    + broadcastTo S1024x1536 (shapeCast S1x1536 v7 shapeCasts_S1x1536_S1x1536) broadcasts_S1x1536_S1024x1536 (ix2 a c) = _
  rw [matmulA_at, bcast_row, shapeCast_self, shapeCast_self]
  rfl

theorem gates_at (a : Fin 1024) (r : Fin 1024) :
    gates v0 v1 v4 v7 v13 (ix2 a r)
      = gate (rows v0 a) (rows v1 a) (fun r k => v4 (ix2 k (c1 r))) (fun r => v7 (ix2 (0 : Fin 1) (c1 r))) (fun r k => v13 (ix2 k r)) r := by
  show extractStridedSlice S1024x1024 ![0, 512] (proj v0 v4 v7) slices_S1024x1536_o0_512_S1024x1024 (ix2 a r)
    + FloatOps.matmul dot_S1024x512_S512x1024_S1024x1024_1_0_0_1_n_n none (truncf .bf16 v1 bitsLt_bf16_f32) (shapeCast S512x1024 v13 shapeCasts_S512x1024_S512x1024)
      (constant (F := Ideal) S1024x1024 .f32 0x00000000#32) (ix2 a r) = _
  rw [extractStridedSlice_apply ![0, 512] (proj v0 v4 v7) slices_S1024x1536_o0_512_S1024x1024 (ix2 a r) (ix2 a (c1 r))
      (fun b => match b with
        | ⟨0, _⟩ => by show a.val = 0 + a.val; omega
        | ⟨1, _⟩ => by show 512 + r.val = 512 + r.val; rfl),
    proj_at, matmulB_at, shapeCast_self]
  rfl

theorem scaled_at (a : Fin 1024) (k : Fin 512) :
    scaled v0 v1 v4 v7 v13 (ix2 a k)
      = v1 (ix2 a k) * rst (rows v0 a) (rows v1 a) (fun r k => v4 (ix2 k (c1 r))) (fun r => v7 (ix2 (0 : Fin 1) (c1 r))) (fun r k => v13 (ix2 k r)) k := by
  show v1 (ix2 a k) * Ideal.logistic (extractStridedSlice S1024x512 ![0, 512] (gates v0 v1 v4 v7 v13) slices_S1024x1024_o0_512_S1024x512 (ix2 a k)) = _
  rw [extractStridedSlice_apply ![0, 512] (gates v0 v1 v4 v7 v13) slices_S1024x1024_o0_512_S1024x512 (ix2 a k) (ix2 a (hi k))
      (fun b => match b with
        | ⟨0, _⟩ => by show a.val = 0 + a.val; omega
        | ⟨1, _⟩ => by show 512 + k.val = 512 + k.val; rfl),
    gates_at]
  rfl

/-- The body's stored value at `(a, q)` is the cell of row `a`. -/
theorem pay_at (a : Fin 1024) (q : Fin 512) :
    k0_pay1 (F := Ideal) v0 v1 v4 v7 v13 v23 (ix2 a q)
      = cell (rows v0 a) (rows v1 a) (fun r k => v4 (ix2 k (c0 r))) (fun r => v7 (ix2 (0 : Fin 1) (c0 r)))
          (fun r k => v4 (ix2 k (c1 r))) (fun r => v7 (ix2 (0 : Fin 1) (c1 r))) (fun r k => v13 (ix2 k r)) (fun r k => v23 (ix2 k r)) q := by
  rw [pay_eq]
  show v1 (ix2 a q)
    + Ideal.logistic (extractStridedSlice S1024x512 ![0, 0] (gates v0 v1 v4 v7 v13) slices_S1024x1024_o0_0_S1024x512 (ix2 a q))
      * (Ideal.tanh (extractStridedSlice S1024x512 ![0, 0] (proj v0 v4 v7) slices_S1024x1536_o0_0_S1024x512 (ix2 a q)
          + FloatOps.matmul dot_S1024x512_S512x512_S1024x512_1_0_0_1_n_n none (truncf .bf16 (scaled v0 v1 v4 v7 v13) bitsLt_bf16_f32)
            (shapeCast S512x512 v23 shapeCasts_S512x512_S512x512) (constant (F := Ideal) S1024x512 .f32 0x00000000#32) (ix2 a q))
        - v1 (ix2 a q)) = _
  rw [extractStridedSlice_apply ![0, 0] (gates v0 v1 v4 v7 v13) slices_S1024x1024_o0_0_S1024x512 (ix2 a q) (ix2 a (lo q))
      (fun b => match b with
        | ⟨0, _⟩ => by show a.val = 0 + a.val; omega
        | ⟨1, _⟩ => by show q.val = 0 + q.val; omega),
    extractStridedSlice_apply ![0, 0] (proj v0 v4 v7) slices_S1024x1536_o0_0_S1024x512 (ix2 a q) (ix2 a (c0 q))
      (fun b => match b with
        | ⟨0, _⟩ => by show a.val = 0 + a.val; omega
        | ⟨1, _⟩ => by show q.val = 0 + q.val; omega),
    gates_at, proj_at, matmulC_at, shapeCast_self]
  have hs : ∀ k : Fin 512, (truncf .bf16 (scaled v0 v1 v4 v7 v13) bitsLt_bf16_f32 : FVec Ideal S1024x512 .bf16) (ix2 a k)
      = v1 (ix2 a k) * rst (rows v0 a) (rows v1 a) (fun r k => v4 (ix2 k (c1 r))) (fun r => v7 (ix2 (0 : Fin 1) (c1 r))) (fun r k => v13 (ix2 k r)) k :=
    fun k => scaled_at v0 v1 v4 v7 v13 a k
  simp only [hs]
  rfl

end

end Cert.Gru.Kern

end
-- ==== Proof.HostWeights.lean ====
/-
  The four arrays the host prepares before the kernel region, as functions of the arguments: each weight matrix is
  transposed, the two data-side matrices are joined along the columns and the two biases along their one axis (then
  given a leading unit axis), and a change of float format is the identity on the extended reals. Read at an entry:
    fused matrix at (k, c) : the input-to-state weights at (c, k) for c < 512, the input-to-gate weights at (c − 512, k) after;
    fused bias at (0, c)   : the input-to-state bias at c for c < 512, the input-to-gate bias at c − 512 after;
    the other two at (k, r): the state-to-gate, state-to-state weights at (r, k).
-/
import proofs.«153636_j64604898066782_2_alg».proof.Proof.Gen.KernelIdeal.Frame
import proofs.«153636_j64604898066782_2_alg».proof.Proof.KernPay
import Idealize.ShloMosaic.Lib.Pipeline.Value
import Idealize.ShloMosaic.Lib.StableHlo.Run
import Idealize.ShloMosaic.Lib.ValueIdx

noncomputable section

namespace Cert.Gru.Host

open Cert.KernelIdeal Cert.KernelIdeal.Gen Idealize.ShloMosaic Idealize.ShloMosaic.TcCoe Idealize.SL.Sem Idealize.ShloMosaic.ValueIdx
open Cert.Gru.Kern

variable (m : (ℓ : Loc nD τ sig) → Buf (Elt Ideal) ℓ) (c : Dev nD)

/-- The fused matrix as the region finds it. -/
theorem V_v3 : (V m c main_v3 : S512x1536.Idx → EReal)
    = truncf (F := Ideal) .bf16 (concatenate S512x1536 1 [⟨S512x512, transpose S512x512 [1, 0] (m ((c : Thread nD τ).loc main_arg2)) transposes_S512x512_S512x512_1_0⟩,
        ⟨S512x1024, transpose S512x1024 [1, 0] (m ((c : Thread nD τ).loc main_arg4)) transposes_S1024x512_S512x1024_1_0⟩] concatenates_S512x512_S512x1024_S512x1536_d1) bitsLt_bf16_f32 := by
  dsimp only [Gen.V, Gen.hostOps0]
  after_results
  try rfl

/-- The fused bias row as the region finds it. -/
theorem V_v5 : (V m c main_v5 : S1x1536.Idx → EReal)
    = shapeCast S1x1536 (concatenate S1536 0 [⟨S512, m ((c : Thread nD τ).loc main_arg3)⟩, ⟨S1024, m ((c : Thread nD τ).loc main_arg5)⟩]
        concatenates_S512_S1024_S1536_d0) shapeCasts_S1536_S1x1536 := by
  dsimp only [Gen.V, Gen.hostOps0]
  after_results
  try rfl

/-- The transposed state-to-gate weights as the region finds them. -/
theorem V_v7 : (V m c main_v7 : S512x1024.Idx → EReal)
    = truncf (F := Ideal) .bf16 (transpose S512x1024 [1, 0] (m ((c : Thread nD τ).loc main_arg6)) transposes_S1024x512_S512x1024_1_0) bitsLt_bf16_f32 := by
  dsimp only [Gen.V, Gen.hostOps0]
  after_results
  try rfl

/-- The transposed state-to-state weights as the region finds them. -/
theorem V_v9 : (V m c main_v9 : S512x512.Idx → EReal)
    = truncf (F := Ideal) .bf16 (transpose S512x512 [1, 0] (m ((c : Thread nD τ).loc main_arg7)) transposes_S512x512_S512x512_1_0) bitsLt_bf16_f32 := by
  dsimp only [Gen.V, Gen.hostOps0]
  after_results
  try rfl

theorem fused_lo (k r : Fin 512) :
    (V m c main_v3 : S512x1536.Idx → EReal) (ix2 k (c0 r)) = (m ((c : Thread nD τ).loc main_arg2) : S512x512.Idx → EReal) (ix2 r k) := by
  refine (congrFun (V_v3 m c) (ix2 k (c0 r))).trans ?_
  refine (concatenate_pair_apply_left (t := S512x1536) (s₁ := S512x512) (s₂ := S512x1024) (1 : Fin 2) _ _ concatenates_S512x512_S512x1024_S512x1536_d1 (ix2 k (c0 r)) rfl (ix2 k r)
    (fun b => match b with | ⟨0, _⟩ => rfl | ⟨1, _⟩ => rfl)).trans ?_
  exact transpose_apply [1, 0] _ transposes_S512x512_S512x512_1_0 (ix2 k r) (ix2 r k)
    (fun b => match b with | ⟨0, _⟩ => rfl | ⟨1, _⟩ => rfl)

theorem fused_hi (k : Fin 512) (r : Fin 1024) :
    (V m c main_v3 : S512x1536.Idx → EReal) (ix2 k (c1 r)) = (m ((c : Thread nD τ).loc main_arg4) : S1024x512.Idx → EReal) (ix2 r k) := by
  refine (congrFun (V_v3 m c) (ix2 k (c1 r))).trans ?_
  refine (concatenate_pair_apply_right (t := S512x1536) (s₁ := S512x512) (s₂ := S512x1024) (1 : Fin 2) _ _ concatenates_S512x512_S512x1024_S512x1536_d1 (ix2 k (c1 r)) rfl rfl (ix2 k r)
    (fun b => match b with | ⟨0, _⟩ => fun _ => rfl | ⟨1, _⟩ => fun hne => absurd rfl hne)
    (by show r.val + 512 = 512 + r.val; omega)).trans ?_
  exact transpose_apply [1, 0] _ transposes_S1024x512_S512x1024_1_0 (ix2 k r) (ix2 r k)
    (fun b => match b with | ⟨0, _⟩ => rfl | ⟨1, _⟩ => rfl)

theorem bias_lo (r : Fin 512) :
    (V m c main_v5 : S1x1536.Idx → EReal) (ix2 (0 : Fin 1) (c0 r)) = (m ((c : Thread nD τ).loc main_arg3) : S512.Idx → EReal) (ix1 r) := by
  refine (congrFun (V_v5 m c) (ix2 (0 : Fin 1) (c0 r))).trans ?_
  refine (shapeCast_apply _ shapeCasts_S1536_S1x1536 (ix2 (0 : Fin 1) (c0 r)) (ix1 (c0 r)) (by
    rw [Shape.rowMajor_val_two, Shape.rowMajor_val_one]; show r.val = 0 * 1536 + r.val; omega)).trans ?_
  exact concatenate_pair_apply_left (t := S1536) (s₁ := S512) (s₂ := S1024) (0 : Fin 1) _ _ concatenates_S512_S1024_S1536_d0 (ix1 (c0 r)) rfl (ix1 r)
    (fun b => match b with | ⟨0, _⟩ => rfl)

theorem bias_hi (r : Fin 1024) :
    (V m c main_v5 : S1x1536.Idx → EReal) (ix2 (0 : Fin 1) (c1 r)) = (m ((c : Thread nD τ).loc main_arg5) : S1024.Idx → EReal) (ix1 r) := by
  refine (congrFun (V_v5 m c) (ix2 (0 : Fin 1) (c1 r))).trans ?_
  refine (shapeCast_apply _ shapeCasts_S1536_S1x1536 (ix2 (0 : Fin 1) (c1 r)) (ix1 (c1 r)) (by
    rw [Shape.rowMajor_val_two, Shape.rowMajor_val_one]; show 512 + r.val = 0 * 1536 + (512 + r.val); omega)).trans ?_
  exact concatenate_pair_apply_right (t := S1536) (s₁ := S512) (s₂ := S1024) (0 : Fin 1) _ _ concatenates_S512_S1024_S1536_d0 (ix1 (c1 r)) rfl rfl (ix1 r)
    (fun b => match b with | ⟨0, _⟩ => fun hne => absurd rfl hne)
    (by show r.val + 512 = 512 + r.val; omega)

theorem wsg_at (k : Fin 512) (r : Fin 1024) :
    (V m c main_v7 : S512x1024.Idx → EReal) (ix2 k r) = (m ((c : Thread nD τ).loc main_arg6) : S1024x512.Idx → EReal) (ix2 r k) := by
  refine (congrFun (V_v7 m c) (ix2 k r)).trans ?_
  exact transpose_apply [1, 0] _ transposes_S1024x512_S512x1024_1_0 (ix2 k r) (ix2 r k)
    (fun b => match b with | ⟨0, _⟩ => rfl | ⟨1, _⟩ => rfl)

theorem wh_at (k r : Fin 512) :
    (V m c main_v9 : S512x512.Idx → EReal) (ix2 k r) = (m ((c : Thread nD τ).loc main_arg7) : S512x512.Idx → EReal) (ix2 r k) := by
  refine (congrFun (V_v9 m c) (ix2 k r)).trans ?_
  exact transpose_apply [1, 0] _ transposes_S512x512_S512x512_1_0 (ix2 k r) (ix2 r k)
    (fun b => match b with | ⟨0, _⟩ => rfl | ⟨1, _⟩ => rfl)

end Cert.Gru.Host

end
-- ==== Proof.Blocks.lean ====
/-
  From blocks to the array. Grid point `t` (of 32) works on rows [1024·t, 1024·t + 1024) of the data and of the
  state and sees the four prepared weight arrays whole; what it writes back is its 1024 rows of the new-state array.
  So every point's written block is the restriction of ONE array — the cell of each row — and the 32 blocks tile
  the 32768 rows.
-/
import proofs.«153636_j64604898066782_2_alg».proof.Proof.Gen.KernelIdeal.Value
import proofs.«153636_j64604898066782_2_alg».proof.Proof.KernPay
import proofs.«153636_j64604898066782_2_alg».proof.Proof.HostWeights

noncomputable section

namespace Cert.Gru.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Gru.Kern Cert.Gru.Host

variable (m : (ℓ : Loc nD τ sig) → Buf (Elt Ideal) ℓ) (c : Dev nD)

/-- The new-state array of the launch memory's arguments. -/
def GA : S32768x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-- The index maps over the grid: the data, state and output windows are at block row `t`, block column 0; the four
    weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `a` of point `t`'s block, as a row of the whole array. -/
abbrev row (t : Fin cfg0.N) (a : Fin 1024) : Fin 32768 :=
  ⟨t.val * 1024 + a.val, by have ht : t.val < 32 := t.isLt; have := a.isLt; omega⟩

theorem blk0 (t : Fin cfg0.N) (a : Fin 1024) (k : Fin 512) :
    iblk m c 0 t (ix2 a k : S1024x512.Idx) = ((m ((c : Thread nD τ).loc main_arg0)) : S32768x512.Idx → EReal) (ix2 (row t a) k) := by
  obtain ⟨e0, e1, -⟩ := idx_facts t
  unfold iblk
  show V m c main_arg0 (((cfg0.win 0).blk t).view.emb (ix2 a k : S1024x512.Idx)) = _
  rw [V_main_arg0]
  refine congrArg _ (funext fun b => Fin.ext ?_)
  match b with
  | ⟨0, _⟩ => show win0_0.index t (0 : Fin 2) * 1024 + 1 * a.val = t.val * 1024 + a.val; omega
  | ⟨1, _⟩ => show win0_0.index t (1 : Fin 2) * 512 + 1 * k.val = k.val; omega

theorem blk1 (t : Fin cfg0.N) (a : Fin 1024) (k : Fin 512) :
    iblk m c 1 t (ix2 a k : S1024x512.Idx) = ((m ((c : Thread nD τ).loc main_arg1)) : S32768x512.Idx → EReal) (ix2 (row t a) k) := by
  obtain ⟨-, -, e0, e1, -⟩ := idx_facts t
  unfold iblk
  show V m c main_arg1 (((cfg0.win 1).blk t).view.emb (ix2 a k : S1024x512.Idx)) = _
  rw [V_main_arg1]
  refine congrArg _ (funext fun b => Fin.ext ?_)
  match b with
  | ⟨0, _⟩ => show win0_1.index t (0 : Fin 2) * 1024 + 1 * a.val = t.val * 1024 + a.val; omega
  | ⟨1, _⟩ => show win0_1.index t (1 : Fin 2) * 512 + 1 * k.val = k.val; omega

theorem blk2 (t : Fin cfg0.N) (k : Fin 512) (r : Fin 1536) :
    iblk m c 2 t (ix2 k r : S512x1536.Idx) = (V m c main_v3 : S512x1536.Idx → EReal) (ix2 k r) := by
  obtain ⟨-, -, -, -, e0, e1, -⟩ := idx_facts t
  unfold iblk
  show V m c main_v3 (((cfg0.win 2).blk t).view.emb (ix2 k r : S512x1536.Idx)) = _
  refine congrArg _ (funext fun b => Fin.ext ?_)
  match b with
  | ⟨0, _⟩ => show win0_2.index t (0 : Fin 2) * 512 + 1 * k.val = k.val; omega
  | ⟨1, _⟩ => show win0_2.index t (1 : Fin 2) * 1536 + 1 * r.val = r.val; omega

theorem blk3 (t : Fin cfg0.N) (r : Fin 1536) :
    iblk m c 3 t (ix2 (0 : Fin 1) r : S1x1536.Idx) = (V m c main_v5 : S1x1536.Idx → EReal) (ix2 (0 : Fin 1) r) := by
  obtain ⟨-, -, -, -, -, -, e0, e1, -⟩ := idx_facts t
  unfold iblk
  show V m c main_v5 (((cfg0.win 3).blk t).view.emb (ix2 (0 : Fin 1) r : S1x1536.Idx)) = _
  refine congrArg _ (funext fun b => Fin.ext ?_)
  match b with
  | ⟨0, _⟩ => show win0_3.index t (0 : Fin 2) * 1 + 1 * 0 = 0; omega
  | ⟨1, _⟩ => show win0_3.index t (1 : Fin 2) * 1536 + 1 * r.val = r.val; omega

theorem blk4 (t : Fin cfg0.N) (k : Fin 512) (r : Fin 1024) :
    iblk m c 4 t (ix2 k r : S512x1024.Idx) = (V m c main_v7 : S512x1024.Idx → EReal) (ix2 k r) := by
  obtain ⟨-, -, -, -, -, -, -, -, e0, e1, -⟩ := idx_facts t
  unfold iblk
  show V m c main_v7 (((cfg0.win 4).blk t).view.emb (ix2 k r : S512x1024.Idx)) = _
  refine congrArg _ (funext fun b => Fin.ext ?_)
  match b with
  | ⟨0, _⟩ => show win0_4.index t (0 : Fin 2) * 512 + 1 * k.val = k.val; omega
  | ⟨1, _⟩ => show win0_4.index t (1 : Fin 2) * 1024 + 1 * r.val = r.val; omega

theorem blk5 (t : Fin cfg0.N) (k : Fin 512) (r : Fin 512) :
    iblk m c 5 t (ix2 k r : S512x512.Idx) = (V m c main_v9 : S512x512.Idx → EReal) (ix2 k r) := by
  obtain ⟨-, -, -, -, -, -, -, -, -, -, e0, e1, -⟩ := idx_facts t
  unfold iblk
  show V m c main_v9 (((cfg0.win 5).blk t).view.emb (ix2 k r : S512x512.Idx)) = _
  refine congrArg _ (funext fun b => Fin.ext ?_)
  match b with
  | ⟨0, _⟩ => show win0_5.index t (0 : Fin 2) * 512 + 1 * k.val = k.val; omega
  | ⟨1, _⟩ => show win0_5.index t (1 : Fin 2) * 512 + 1 * r.val = r.val; omega

/-- Entry `(a, q)` of point `t`'s output block is entry `(1024·t + a, q)` of the array. -/
theorem emb6 (t : Fin cfg0.N) (a : Fin 1024) (q : Fin 512) :
    ((cfg0.win 6).blk t).view.emb (ix2 a q : S1024x512.Idx) = (ix2 (row t a) q : S32768x512.Idx) := by
  obtain ⟨-, -, -, -, -, -, -, -, -, -, -, -, e0, e1⟩ := idx_facts t
  refine funext fun b => Fin.ext ?_
  match b with
  | ⟨0, _⟩ => show win0_6.index t (0 : Fin 2) * 1024 + 1 * a.val = t.val * 1024 + a.val; omega
  | ⟨1, _⟩ => show win0_6.index t (1 : Fin 2) * 512 + 1 * q.val = q.val; omega

/-- What point `t` writes back is block `t` of the new-state array. -/
theorem flushed_eq (t : Fin cfg0.N) :
    (dats m 0 c).flushed 6 t = ((cfg0.win 6).blk t).view.read (Elt Ideal) (GA m c) := by
  rw [Cert.KernelIdeal.Value.flushed6]
  unfold out0_6
  rw [View.canon_unit_zero hz]
  simp only [View.ld_unit_zero (S := S1024x512) hz, View.ld_unit_zero (S := S512x1536) hz, View.ld_unit_zero (S := S1x1536) hz,
    View.ld_unit_zero (S := S512x1024) hz, View.ld_unit_zero (S := S512x512) hz]
  funext y
  obtain ⟨a, q, rfl⟩ : ∃ (a : Fin 1024) (q : Fin 512), y = (ix2 a q : S1024x512.Idx) := ⟨y 0, y 1, eq_ix2 y⟩
  show k0_pay1 (F := Ideal) (iblk m c 0 t) (iblk m c 1 t) (iblk m c 2 t) (iblk m c 3 t) (iblk m c 4 t) (iblk m c 5 t) (ix2 a q)
    = GA m c (((cfg0.win 6).blk t).view.emb (ix2 a q : S1024x512.Idx))
  rw [emb6 t a q]
  refine (pay_at (iblk m c 0 t) (iblk m c 1 t) (iblk m c 2 t) (iblk m c 3 t) (iblk m c 4 t) (iblk m c 5 t) a q).trans ?_
  have h0 : rows (iblk m c 0 t) a = rows (m ((c : Thread nD τ).loc main_arg0)) (row t a) := funext fun k => blk0 m c t a k
  have h1 : rows (iblk m c 1 t) a = rows (m ((c : Thread nD τ).loc main_arg1)) (row t a) := funext fun k => blk1 m c t a k
  have h2 : (fun (r : Fin 512) (k : Fin 512) => iblk m c 2 t (ix2 k (c0 r))) = rows (m ((c : Thread nD τ).loc main_arg2)) :=
    funext fun r => funext fun k => (blk2 m c t k (c0 r)).trans (fused_lo m c k r)
  have h3 : (fun (r : Fin 512) => iblk m c 3 t (ix2 (0 : Fin 1) (c0 r))) = ent (m ((c : Thread nD τ).loc main_arg3)) :=
    funext fun r => (blk3 m c t (c0 r)).trans (bias_lo m c r)
  have h4 : (fun (r : Fin 1024) (k : Fin 512) => iblk m c 2 t (ix2 k (c1 r))) = rows (m ((c : Thread nD τ).loc main_arg4)) :=
    funext fun r => funext fun k => (blk2 m c t k (c1 r)).trans (fused_hi m c k r)
  have h5 : (fun (r : Fin 1024) => iblk m c 3 t (ix2 (0 : Fin 1) (c1 r))) = ent (m ((c : Thread nD τ).loc main_arg5)) :=
    funext fun r => (blk3 m c t (c1 r)).trans (bias_hi m c r)
  have h6 : (fun (r : Fin 1024) (k : Fin 512) => iblk m c 4 t (ix2 k r)) = rows (m ((c : Thread nD τ).loc main_arg6)) :=
    funext fun r => funext fun k => (blk4 m c t k r).trans (wsg_at m c k r)
  have h7 : (fun (r : Fin 512) (k : Fin 512) => iblk m c 5 t (ix2 k r)) = rows (m ((c : Thread nD τ).loc main_arg7)) :=
    funext fun r => funext fun k => (blk5 m c t k r).trans (wh_at m c k r)
  rw [h0, h1, h2, h3, h4, h5, h6, h7]
  rfl

/-- An index of the array is in point `t`'s block iff each coordinate is in the block's range on its axis. -/
theorem mem_blk (t : Fin cfg0.N) (i : S32768x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v10).slice (win0_6.rect t)).set ↔ _
  rw [View.set_slice_whole, Rect.mem_set_unit]
  exact Iff.rfl

/-- Row `p` of the array is in the block of point `p / 1024`: the 32 blocks tile the array. -/
theorem cover (i : S32768x512.Idx) : ∃ t : Fin cfg0.N, (cfg0.win 6).flush t = true ∧ i ∈ ((cfg0.win 6).blk t).view.set := by
  have hi0 : (i 0).val < 32768 := (i 0).isLt
  have hi1 : (i 1).val < 512 := (i 1).isLt
  let t : Fin cfg0.N := ⟨(i 0).val / 1024, by show (i 0).val / 1024 < 32; omega⟩
  obtain ⟨-, -, -, -, -, -, -, -, -, -, -, -, e0, e1⟩ := idx_facts t
  have ht : t.val = (i 0).val / 1024 := rfl
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- After the run the output array is the new-state array of the arguments. -/
theorem final : (dats m 0 c).arrAt 6 cfg0.N = GA m c :=
  (dats m 0 c).arrAt_eq_of_cover 6 (GA m c) (fun t _ => flushed_eq m c t) cover

end Cert.Gru.Blocks

end
-- ==== Proof.Finite.lean ====
/-
  Under the precondition every entry of the state array is a real number.
  The precondition is the conjunction, over the eight arguments, of "every entry's absolute value is below +∞";
  the state array is its second conjunct. An extended real whose absolute value `max x (−x)` is below `⊤` is neither
  `⊤` nor `⊥`, hence a real.
-/
import proofs.«153636_j64604898066782_2_alg».proof.Pre_finite_inputs
import proofs.«153636_j64604898066782_2_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Gru.Finite

open Cert.Pre_finite_inputs Idealize.ShloMosaic

instance : Subsingleton S_.Idx := ⟨fun a b => funext fun d => d.elim0⟩

/-- An extended real whose absolute value compares below the f32 word of +∞ is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h'
    exact absurd h' (by decide)
  induction x using EReal.rec with
  | bot => exact absurd hlt (by simp)
  | coe r => exact ⟨r, rfl⟩
  | top => exact absurd hlt (by simp)

/-- Under the precondition every entry of the second argument (the state) is a real number. -/
theorem state_real (x0 x1 : FVec Ideal S32768x512 .f32) (x2 : FVec Ideal S512x512 .f32) (x3 : FVec Ideal S512 .f32)
    (x4 : FVec Ideal S1024x512 .f32) (x5 : FVec Ideal S1024 .f32) (x6 : FVec Ideal S1024x512 .f32) (x7 : FVec Ideal S512x512 .f32)
    (h : fn (F := Ideal) x0 x1 x2 x3 x4 x5 x6 x7 = fun _ => 1#1) (i : S32768x512.Idx) : ∃ r : ℝ, x1 i = (r : EReal) := by
  have h0 := congrFun h ValueIdx.ix0
  dsimp only [fn, fn_part1, fn_part2] at h0
  have h33 := (IntOp.andi_eq_one.mp h0).1
  have h28 := (IntOp.andi_eq_one.mp h33).1
  have h23 := (IntOp.andi_eq_one.mp h28).1
  have h18 := (IntOp.andi_eq_one.mp h23).1
  have h13 := (IntOp.andi_eq_one.mp h18).1
  have h8 := (IntOp.andi_eq_one.mp h13).1
  have h7 := (IntOp.andi_eq_one.mp h8).2
  exact real_of_abs_lt (x1 i) (Host.reduce_andi_all _ _ _ _ _ h7 i)

end Cert.Gru.Finite

end
-- ==== Proof.lean ====
/-
  The kernel computes one step of a gated recurrent unit for 32768 rows at once; the reference computes the same step
  with plain array operations. On the extended reals both end at the same array.

  Per row, with data row `d`, state row `s` and σ the logistic function:
    gate = (d·W_igᵀ + b_ig) + s·W_sgᵀ,  u = σ(gate[0:512]),  ρ = σ(gate[512:1024]),
    h = tanh((d·W_isᵀ + b_is) + (s ∘ ρ)·W_h2hᵀ).
  The kernel writes `s + u ∘ (h − s)`; the reference writes `u ∘ h + (1 − u) ∘ s`.

  The pieces (each in its own module):
    GruCell      the cell of one row in both forms, and their equality wherever the state entry is real — σ and
                 tanh are real-valued on all of the extended reals, so only the state's finiteness is used;
    RefCell      the reference's result at an entry is the second form (its products are sums over the contracted
                 column, its spelled-out 1 / (1 + exp(−x)) is σ);
    KernMatmul   the kernel body's three products at an entry, as sums;
    KernPay      the kernel body's stored value at an entry is the first form, over the body's loads: it fuses the
                 two data-side products into one against the joined matrix and slices the result;
    HostWeights  the joined, transposed weight arrays the host prepares, read at an entry;
    Blocks       grid point t handles rows [1024 t, 1024 t + 1024); the 32 written blocks are the restrictions of one
                 array and tile it;
    Finite       the precondition makes every state entry a real number.
  The idealization rewrote nothing, so that conjunct is trivial; the three frames are the generated ones, the
  reference's being its generated run with the result dropped.
-/
import proofs.«153636_j64604898066782_2_alg».proof.Defs
import proofs.«153636_j64604898066782_2_alg».proof.Proof.Gen.Kernel
import proofs.«153636_j64604898066782_2_alg».proof.Proof.Gen.Kernel.Skeleton
import proofs.«153636_j64604898066782_2_alg».proof.Proof.Gen.Kernel.Launch
import proofs.«153636_j64604898066782_2_alg».proof.Proof.Gen.Kernel.Points
import proofs.«153636_j64604898066782_2_alg».proof.Proof.Gen.Kernel.Frame
import proofs.«153636_j64604898066782_2_alg».proof.Proof.Gen.KernelIdeal
import proofs.«153636_j64604898066782_2_alg».proof.Proof.Gen.KernelIdeal.Skeleton
import proofs.«153636_j64604898066782_2_alg».proof.Proof.Gen.KernelIdeal.Launch
import proofs.«153636_j64604898066782_2_alg».proof.Proof.Gen.KernelIdeal.Points
import proofs.«153636_j64604898066782_2_alg».proof.Proof.Gen.KernelIdeal.Frame
import proofs.«153636_j64604898066782_2_alg».proof.Proof.Gen.ReferenceIdeal
import proofs.«153636_j64604898066782_2_alg».proof.Proof.Gen.Pre_finite_inputs
import proofs.«153636_j64604898066782_2_alg».proof.Proof.Gen.KernelIdeal.Value
import proofs.«153636_j64604898066782_2_alg».proof.Proof.Gen.ReferenceIdeal.Run
import proofs.«153636_j64604898066782_2_alg».proof.Proof.Gen.ReferenceIdeal.Read
import proofs.«153636_j64604898066782_2_alg».proof.Proof.GruCell
import proofs.«153636_j64604898066782_2_alg».proof.Proof.RefCell
import proofs.«153636_j64604898066782_2_alg».proof.Proof.Blocks
import proofs.«153636_j64604898066782_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array, of arguments whose state is finite, is the new-state array in the kernel's form:
    entry by entry the reference's convex combination is the kernel's update. -/
theorem reference_is_G
    (x0 x1 : (⟨Cert.ReferenceIdeal.S32768x512, .f32⟩ : BufTy).Contents (Elt Ideal)) (x2 : (⟨Cert.ReferenceIdeal.S512x512, .f32⟩ : BufTy).Contents (Elt Ideal))
    (x3 : (⟨Cert.ReferenceIdeal.S512, .f32⟩ : BufTy).Contents (Elt Ideal)) (x4 : (⟨Cert.ReferenceIdeal.S1024x512, .f32⟩ : BufTy).Contents (Elt Ideal))
    (x5 : (⟨Cert.ReferenceIdeal.S1024, .f32⟩ : BufTy).Contents (Elt Ideal)) (x6 : (⟨Cert.ReferenceIdeal.S1024x512, .f32⟩ : BufTy).Contents (Elt Ideal))
    (x7 : (⟨Cert.ReferenceIdeal.S512x512, .f32⟩ : BufTy).Contents (Elt Ideal))
    (hs : ∀ i : Cert.ReferenceIdeal.S32768x512.Idx, ∃ r : ℝ, x1 i = (r : EReal)) :
    Cert.ReferenceIdeal.Read.val_main_v36 (F := Ideal) x0 x1 x2 x3 x4 x5 x6 x7 = Cert.Gru.G x0 x1 x2 x3 x4 x5 x6 x7 := by
  funext i
  obtain ⟨p, q, rfl⟩ : ∃ (p : Fin 32768) (q : Fin 512), i = ix2 p q := ⟨i 0, i 1, eq_ix2 i⟩
  exact (Cert.Gru.Ref.result_at x0 x1 x2 x3 x4 x5 x6 x7 p q).trans
    (Cert.Gru.cellR_eq_cell _ _ _ _ _ _ _ _ q (hs (ix2 p q)))

/-- Both idealized programs end with the new-state array of the arguments. -/
theorem algebraic : Cert.algebraic_KernelIdeal_ReferenceIdeal := by
  intro m ρ m' ρ' hpre hagree
  refine ⟨fun c => Cert.Gru.Blocks.GA m c, ?_, ?_⟩
  · exact (θ_run Cert.KernelIdeal.defs _ _).mono
      (fun r h c => ⟨(h c).1.trans (Cert.Gru.Blocks.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v36_eq _ _ _ _ _ _ _ _).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact reference_is_G _ _ _ _ _ _ _ _
      (fun i => Cert.Gru.Finite.state_real _ _ _ _ _ _ _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
